-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S200000 : Shape := ⟨1, ![200000]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel

variable [Facts]

def fn {F : FTy → Type} [FloatOps F] (main_arg0 : FVec F S200000x512 .f32) (main_arg1 : IVec S200000 32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  main_v3
-- ==== Kernel.lean ====
abbrev S200000x512 : Shape := ⟨2, ![200000, 512]⟩
abbrev S200000 : Shape := ⟨1, ![200000]⟩
abbrev S200000x1 : Shape := ⟨2, ![200000, 1]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S2000x512 : Shape := ⟨2, ![2000, 512]⟩
abbrev S2000x1 : Shape := ⟨2, ![2000, 1]⟩
abbrev S1024x512 : Shape := ⟨2, ![1024, 512]⟩
abbrev S1x1024 : Shape := ⟨2, ![1, 1024]⟩
abbrev S2000x1024 : Shape := ⟨2, ![2000, 1024]⟩

abbrev nBuf : Space → Nat
  | .hbm => 16
  | .vmem => 7
  | .smem => 0
  | _ => 0

abbrev bufTy : (tb : Table) → Fin (tcTables nBuf tb) → BufTy
  | .hbm, ⟨0, _⟩ => ⟨S200000x512, .f32⟩
  | .hbm, ⟨1, _⟩ => ⟨S200000, .i32⟩
  | .hbm, ⟨2, _⟩ => ⟨S200000x1, .i32⟩
  | .hbm, ⟨3, _⟩ => ⟨S_, .f32⟩
  | .hbm, ⟨4, _⟩ => ⟨S200000, .f32⟩
  | .hbm, ⟨5, _⟩ => ⟨S_, .f32⟩
  | .hbm, ⟨6, _⟩ => ⟨S2048, .f32⟩
  | .hbm, ⟨7, _⟩ => ⟨S200000x1, .i32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x512, .f32⟩
  | .hbm, ⟨14, _⟩ => ⟨S2048x512, .f32⟩
  | .hbm, ⟨15, _⟩ => ⟨S2048x512, .f32⟩
  | .local _ .vmem, ⟨0, _⟩ => ⟨S2000x512, .f32⟩
  | .local _ .vmem, ⟨1, _⟩ => ⟨S2000x512, .f32⟩
  | .local _ .vmem, ⟨2, _⟩ => ⟨S2000x1, .i32⟩
  | .local _ .vmem, ⟨3, _⟩ => ⟨S2000x1, .i32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v23 : BitVec 1 := Scalar.cmpi .eq arg1 c99_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S200000_S200000x1 : S200000.ShapeCasts S200000x1
  bcast_S_S200000 : S_.BroadcastsInDim S200000 (![] : Fin 0 → Fin S200000.rank)
  bcast_S_S2048 : S_.BroadcastsInDim S2048 (![] : Fin 0 → Fin S2048.rank)
  bcast_S200000_S200000x1_0 : S200000.BroadcastsInDim S200000x1 (![0] : Fin 1 → Fin S200000x1.rank)
  shapeCasts_S2048_S2048x1 : S2048.ShapeCasts S2048x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1x1024_d1_w32 : S1x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  natLt_1_32 : 1 < 32
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  bcast_S2048x1_S2048x512_0_1 : S2048x1.BroadcastsInDim S2048x512 (![0, 1] : Fin 2 → Fin S2048x512.rank)
  scatter_S2048_S200000x1_S200000_n_0_0_1_wf : ScatterDims.WF S2048 S200000x1 S200000 [] [0] [0] 1
  dot_S2000x1024_S2000x512_S1024x512_0_0_1_1_n_n_wf : DotDims.WF S2000x1024 S2000x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .i32 = 32 ∨ (Rect.block (s := S200000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x512.size a
  hwx0_2 : ∀ i : grid0.Coords, EltTy.bits .f32 = 32 ∨ (Rect.block (s := S2048x512) S1024x512.size (cc0_transform_2 i) (hinb0_2 i)).WholeWords (EltTy.packing .f32)

variable [Facts₀]

def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def dot_S2000x1024_S2000x512_S1024x512_0_0_1_1_n_n : DotDims S2000x1024 S2000x512 S1024x512 where
  lhsContracting := [0]
  rhsContracting := [0]
  lhsNonContracting := [1]
  rhsNonContracting := [1]
  lhsBatch := []
  rhsBatch := []
  wf := dot_S2000x1024_S2000x512_S1024x512_0_0_1_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x512 : Shape := ⟨2, ![200000, 512]⟩
abbrev S200000 : Shape := ⟨1, ![200000]⟩
abbrev S_ : Shape := ⟨0, ![]⟩
abbrev S2048x512 : Shape := ⟨2, ![2048, 512]⟩
abbrev S200000x1 : Shape := ⟨2, ![200000, 1]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S200000, .i32⟩
  | .hbm, ⟨2, _⟩ => ⟨S_, .f32⟩
  | .hbm, ⟨3, _⟩ => ⟨S2048x512, .f32⟩
  | .hbm, ⟨4, _⟩ => ⟨S200000x1, .i32⟩
  | .hbm, ⟨5, _⟩ => ⟨S2048x512, .f32⟩
  | .hbm, ⟨6, _⟩ => ⟨S_, .f32⟩
  | .hbm, ⟨7, _⟩ => ⟨S200000, .f32⟩
  | .hbm, ⟨8, _⟩ => ⟨S_, .f32⟩
  | .hbm, ⟨9, _⟩ => ⟨S2048, .f32⟩
  | .hbm, ⟨10, _⟩ => ⟨S200000x1, .i32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x512, .f32⟩
  | .hbm, ⟨17, _⟩ => ⟨S2048x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  scatter_S2048x512_S200000x1_S200000x512_1_0_0_1_wf : ScatterDims.WF S2048x512 S200000x1 S200000x512 [1] [0] [0] 1
  scatter_S2048_S200000x1_S200000_n_0_0_1_wf : ScatterDims.WF S2048 S200000x1 S200000 [] [0] [0] 1

variable [Facts₀]

def scatter_S2048x512_S200000x1_S200000x512_1_0_0_1 : ScatterDims S2048x512 S200000x1 S200000x512 where
  updateWindowDims := [1]
  insertedWindowDims := [0]
  scatterDimsToOperandDims := [0]
  indexVectorDim := 1
  wf := scatter_S2048x512_S200000x1_S200000x512_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf

class Facts : Prop extends Facts₀ where

variable [Facts]
-- ==== Proof.KernelPieces.lean ====
/-
  What each control case of the kernel body leaves behind, as one pure term of what it read.

  The body keeps a running block of sums in a scratch buffer. At the first row block of a segment block it first stores
  the zero block and then stores "what the scratch holds, plus this row block's contribution"; at every other row
  block it stores only the latter; at the last row block it also copies the scratch into the output block. So the
  scratch ends the first case at the contribution added to the zero block, the other two cases at the contribution
  added to what the previous point left, and the output block of the last case holds the same value as the scratch.
  Each store covers its whole buffer and each load reads a whole buffer, so the stored value read back is the payload
  applied to the buffers' contents. Stated for every float instance.
-/
import proofs.«143039_j2877628088531_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle row block: the scratch ends at the previous sums plus this block's contribution. -/
theorem scratch_B (c : Dev nD) (i : grid0.Coords) (arg2 : Memref sig .tc .vmem S2000x512 .f32) (harg2 : arg2.IsWhole)
    (arg3 : Memref sig .tc .vmem S2000x1 .i32) (harg3 : arg3.IsWhole) (arg4 : Memref sig .tc .vmem S1024x512 .f32)
    (harg4 : arg4.IsWhole) (arg5 : Memref sig .tc .vmem S1024x512 .f32) (harg5 : arg5.IsWhole)
    (hc0 : ¬cond0_0 i) (hc1 : ¬cond0_1 i) (x0 : Vec F S2000x512 .f32) (x1 : Vec F S2000x1 .i32)
    (xs0 : Vec F S1024x512 .f32) :
    sout0_B_0 c i arg2 harg2 arg3 harg3 arg4 harg4 arg5 harg5 hc0 hc1 x0 x1 xs0 = k0_pay2 i x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S2000x512) hz, View.ld_unit_zero (S := S2000x1) hz, View.ld_unit_zero (S := S1024x512) hz]

/-- The first row block: the scratch ends at the zero block plus this block's contribution. -/
theorem scratch_A (c : Dev nD) (i : grid0.Coords) (arg2 : Memref sig .tc .vmem S2000x512 .f32) (harg2 : arg2.IsWhole)
    (arg3 : Memref sig .tc .vmem S2000x1 .i32) (harg3 : arg3.IsWhole) (arg4 : Memref sig .tc .vmem S1024x512 .f32)
    (harg4 : arg4.IsWhole) (arg5 : Memref sig .tc .vmem S1024x512 .f32) (harg5 : arg5.IsWhole)
    (hc0 : cond0_0 i) (hc1 : ¬cond0_1 i) (x0 : Vec F S2000x512 .f32) (x1 : Vec F S2000x1 .i32) :
    sout0_A_0 c i arg2 harg2 arg3 harg3 arg4 harg4 arg5 harg5 hc0 hc1 x0 x1 = k0_pay2 i x1 x0 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x512) hz, View.readCov_unit_zero (S := S1024x512) _ hz]
  simp only [View.readAt_eq_ld, harg2.read_unread, harg3.read_unread,
    View.ld_unit_zero (S := S2000x512) hz, View.ld_unit_zero (S := S2000x1) hz, View.ld_unit_zero (S := S1024x512) hz]

/-- The last row block: the scratch ends at the previous sums plus this block's contribution … -/
theorem scratch_C (c : Dev nD) (i : grid0.Coords) (arg2 : Memref sig .tc .vmem S2000x512 .f32) (harg2 : arg2.IsWhole)
    (arg3 : Memref sig .tc .vmem S2000x1 .i32) (harg3 : arg3.IsWhole) (arg4 : Memref sig .tc .vmem S1024x512 .f32)
    (harg4 : arg4.IsWhole) (arg5 : Memref sig .tc .vmem S1024x512 .f32) (harg5 : arg5.IsWhole)
    (hc0 : ¬cond0_0 i) (hc1 : cond0_1 i) (x0 : Vec F S2000x512 .f32) (x1 : Vec F S2000x1 .i32)
    (xs0 : Vec F S1024x512 .f32) :
    sout0_C_0 c i arg2 harg2 arg3 harg3 arg4 harg4 arg5 harg5 hc0 hc1 x0 x1 xs0 = k0_pay2 i x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S2000x512) hz, View.ld_unit_zero (S := S2000x1) hz, View.ld_unit_zero (S := S1024x512) hz]

/-- … and the output block is a copy of it. -/
theorem out_C (c : Dev nD) (i : grid0.Coords) (arg2 : Memref sig .tc .vmem S2000x512 .f32) (harg2 : arg2.IsWhole)
    (arg3 : Memref sig .tc .vmem S2000x1 .i32) (harg3 : arg3.IsWhole) (arg4 : Memref sig .tc .vmem S1024x512 .f32)
    (harg4 : arg4.IsWhole) (arg5 : Memref sig .tc .vmem S1024x512 .f32) (harg5 : arg5.IsWhole)
    (hc0 : ¬cond0_0 i) (hc1 : cond0_1 i) (x0 : Vec F S2000x512 .f32) (x1 : Vec F S2000x1 .i32)
    (xs0 : Vec F S1024x512 .f32) :
    out0_C_2 c i arg2 harg2 arg3 harg3 arg4 harg4 arg5 harg5 hc0 hc1 x0 x1 xs0 = k0_pay2 i x1 x0 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x512) _ hz]
  simp only [View.readAt_eq_ld, harg2.read_unread, harg3.read_unread, harg5.read_unread,
    View.ld_unit_zero (S := S2000x512) hz, View.ld_unit_zero (S := S2000x1) hz, View.ld_unit_zero (S := S1024x512) hz]

end Cert.KernelIdeal.Pieces

end
-- ==== Proof.LibTransposedLhsDot.lean ====
/-
  The product of the transpose of a K×M matrix with a K×N matrix, read at one entry.

  Both operands are contracted along their FIRST axis, so entry (p, q) of the M×N result is the sum over k of
  left (k, p) times right (k, q). Stated for the dimension record `dims K M N` below at the exact instance, for the
  accelerator's product into the zero accumulator; general in the three extents. A printed record with contracting
  axes [0] and [0], free axes [1] and [1] and no batch axes is this record (the two differ only in a proof field).
  With N = 1 and a constant right operand this is a column of weighted column sums.
-/
import Idealize.ShloMosaic.Lib.ValueIdx
import Idealize.ShloMosaic.PureOps.Ideal.Laws

noncomputable section

open scoped BigOperators

namespace Cert.LibTransposedLhsDot

open Idealize.ShloMosaic Idealize.ShloMosaic.ValueIdx

/-- Contract axis 0 of a K×M matrix with axis 0 of a K×N matrix. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand's index for result entry (p, q) and contraction position k is (k, p). -/
theorem lhsIdx_eq (p : Fin M) (q : Fin N) (k : Fin K) :
    (dims K M N).lhsIdx (ix2 p q) ((contrEquiv1 (dims K M N) K rfl rfl).symm k) = ix2 k p := by
  have hk := contrEquiv1_symm_val (dims K M N) K rfl rfl k
  funext a; apply Fin.ext
  match a with
  | ⟨0, _⟩ => exact ((dims K M N).lhsIdx_val_of_single rfl _ _).trans hk
  | ⟨1, _⟩ =>
    show ((dims K M N).lhsIdx (ix2 p q) _ 1).val = p.val
    unfold DotDims.lhsIdx
    rw [dif_neg (show ¬(1 : Fin 2) ∈ (dims K M N).lhsBatch from List.not_mem_nil),
      dif_pos (show (1 : Fin 2) ∈ (dims K M N).lhsNonContracting from List.mem_singleton.mpr rfl)]
    rfl

/-- The right operand's index for result entry (p, q) and contraction position k is (k, q). -/
theorem rhsIdx_eq (p : Fin M) (q : Fin N) (k : Fin K) :
    (dims K M N).rhsIdx (ix2 p q) ((contrEquiv1 (dims K M N) K rfl rfl).symm k) = ix2 k q := by
  have hk := contrEquiv1_symm_val (dims K M N) K rfl rfl k
  funext a; apply Fin.ext
  match a with
  | ⟨0, _⟩ => exact ((dims K M N).rhsIdx_val_of_single rfl _ _).trans hk
  | ⟨1, _⟩ =>
    show ((dims K M N).rhsIdx (ix2 p q) _ 1).val = q.val
    unfold DotDims.rhsIdx
    rw [dif_neg (show ¬(1 : Fin 2) ∈ (dims K M N).rhsBatch from List.not_mem_nil),
      dif_pos (show (1 : Fin 2) ∈ (dims K M N).rhsNonContracting from List.mem_singleton.mpr rfl)]
    rfl

/-- The accelerator's product into the zero accumulator: entry (p, q) is the sum over k of
    left (k, p) · right (k, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    matmul (dims K M N) prec l r (constant (F := Ideal) ⟨2, ![M, N]⟩ .f32 0x00000000#32) (ix2 p q)
      = ∑ k : Fin K, l (ix2 k p) * r (ix2 k q) := by
  refine (Ideal.matmul_constant_zero_apply (dims K M N) prec l r (ix2 p q)).trans ?_
  rw [← Equiv.sum_comp (contrEquiv1 (dims K M N) K rfl rfl).symm]
  refine Finset.sum_congr rfl fun k _ => ?_
  rw [lhsIdx_eq, rhsIdx_eq]

end Cert.LibTransposedLhsDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.SegSum.lean ====
/-
  Segment sums over row numbers.

  A segment sum picks, for segment s and column q, the rows r of a matrix X whose integer label is s, and adds their
  entries X (r, q). Here it is written as a sum over ALL row numbers of the entry or zero, and the row numbers are
  plain naturals (a row number past the last row contributes zero), so that a sum over the first (j + 1) · b rows
  splits into the sum over the first j · b rows plus the block of b rows that starts at j · b — the shape in which a
  kernel that walks the rows block by block accumulates it. The last lemmas compare integer labels: a 32-bit word read
  as a signed integer equals a small natural exactly when it is that natural's word, and a lane number plus a
  multiple of 1024 is one word.
-/
import Idealize.ShloMosaic.Lib.ValueIdx

noncomputable section

open scoped BigOperators

namespace Cert.SegSum

open Idealize.ShloMosaic Idealize.ShloMosaic.ValueIdx

/-- Entry (r, q) of an n×c matrix for a natural row number r; zero past the last row. -/
def rowOr {n c : ℕ} (X : (⟨2, ![n, c]⟩ : Shape).Idx → EReal) (r : ℕ) (q : Fin c) : EReal :=
  if h : r < n then X (ix2 ⟨r, h⟩ q) else 0

/-- The label of row r in an n×1 column of 32-bit labels; the zero word past the last row. -/
def labelOr {n : ℕ} (I : (⟨2, ![n, 1]⟩ : Shape).Idx → BitVec 32) (r : ℕ) : BitVec 32 :=
  if h : r < n then I (ix2 ⟨r, h⟩ 0) else 0

/-- What row r contributes to segment s in column q: its entry when its label is s, else zero. -/
def term {n c : ℕ} (X : (⟨2, ![n, c]⟩ : Shape).Idx → EReal) (I : (⟨2, ![n, 1]⟩ : Shape).Idx → BitVec 32)
    (s : ℕ) (q : Fin c) (r : ℕ) : EReal :=
  if labelOr I r = BitVec.ofNat 32 s then rowOr X r q else 0

theorem rowOr_lt {n c : ℕ} (X : (⟨2, ![n, c]⟩ : Shape).Idx → EReal) (r : ℕ) (h : r < n) (q : Fin c) :
    rowOr X r q = X (ix2 ⟨r, h⟩ q) := dif_pos h

theorem labelOr_lt {n : ℕ} (I : (⟨2, ![n, 1]⟩ : Shape).Idx → BitVec 32) (r : ℕ) (h : r < n) :
    labelOr I r = I (ix2 ⟨r, h⟩ 0) := dif_pos h

/-- The first (j + 1) · b terms are the first j · b terms and then the block of b terms starting at j · b. -/
theorem sum_range_block {M : Type*} [AddCommMonoid M] (f : ℕ → M) (b j : ℕ) :
    ∑ r ∈ Finset.range ((j + 1) * b), f r
      = ∑ r ∈ Finset.range (j * b), f r + ∑ k : Fin b, f (j * b + k.val) := by
  rw [show (j + 1) * b = j * b + b from Nat.succ_mul j b, Finset.sum_range_add]
  exact congrArg _ (Finset.sum_range fun x => f (j * b + x))

/-- The first block alone. -/
theorem sum_range_first {M : Type*} [AddCommMonoid M] (f : ℕ → M) (b : ℕ) :
    ∑ r ∈ Finset.range ((0 + 1) * b), f r = ∑ k : Fin b, f (0 * b + k.val) := by
  rw [sum_range_block, Nat.zero_mul, Finset.range_zero, Finset.sum_empty, zero_add]

/-- Over all n rows the sum of the contributions is the segment sum over the matrix's own row indices. -/
theorem sum_term_all {n c : ℕ} (X : (⟨2, ![n, c]⟩ : Shape).Idx → EReal) (I : (⟨2, ![n, 1]⟩ : Shape).Idx → BitVec 32)
    (s : ℕ) (q : Fin c) :
    ∑ r ∈ Finset.range n, term X I s q r
      = ∑ r : Fin n, if I (ix2 r 0) = BitVec.ofNat 32 s then X (ix2 r q) else 0 := by
  rw [Finset.sum_range]
  refine Finset.sum_congr rfl fun r _ => ?_
  unfold term
  rw [labelOr_lt I r.val r.isLt, rowOr_lt X r.val r.isLt]

/-- A 32-bit word read as a signed integer is the natural s < 2³¹ exactly when it is s's word. -/
theorem toInt_eq_iff (v : BitVec 32) (s : ℕ) (hs : s < 2147483648) :
    v.toInt = (s : ℤ) ↔ v = BitVec.ofNat 32 s := by
  have hv : v.toNat < 4294967296 := v.isLt
  constructor
  · intro h
    apply BitVec.eq_of_toNat_eq
    rw [BitVec.toNat_ofNat, BitVec.toInt_eq_toNat_cond] at *
    split at h <;> omega
  · rintro rfl
    rw [BitVec.toInt_eq_toNat_cond, BitVec.toNat_ofNat]
    have : s % 2 ^ 32 = s := Nat.mod_eq_of_lt (by omega)
    rw [this]
    split <;> omega

/-- Lane p of segment block g is segment g · 1024 + p: the lane's word plus the block's base word is that word. -/
theorem lane_word (p g : ℕ) :
    BitVec.ofNat 32 p + BitVec.ofNat 32 g * 1024#32 = BitVec.ofNat 32 (g * 1024 + p) := by
  rw [show (1024#32 : BitVec 32) = BitVec.ofNat 32 1024 from rfl, BitVec.ofNat_mul_ofNat, BitVec.ofNat_add_ofNat,
    Nat.add_comm]

/-- A one-bit equality test, widened to 32 bits and read as a signed integer, is 1 or 0 on the extended reals. -/
theorem onehot_word (a b : BitVec 32) :
    ((((BitVec.ofBool (a == b)).setWidth 32).toInt : ℝ) : EReal) = if a = b then 1 else 0 := by
  have h1 : ((BitVec.ofBool true).setWidth 32).toInt = 1 := by decide
  have h0 : ((BitVec.ofBool false).setWidth 32).toInt = 0 := by decide
  by_cases h : a = b
  · subst h
    rw [if_pos rfl, beq_self_eq_true, h1]
    simp
  · rw [if_neg h, show (a == b) = false from by simpa using h, h0]
    simp

end Cert.SegSum

end
-- ==== Proof.KernelPayload.lean ====
/-
  One row block's contribution, read at an entry on the extended reals.

  For a block of 2000 rows X (2000×512) with integer labels L (2000×1), and segment block g, the body forms the 0/1
  matrix whose entry (k, p) is 1 when row k's label is segment g · 1024 + p, multiplies its transpose with X on the
  matrix unit, and adds the product to the running block A. Changing a float's format is the identity on extended
  reals, the 0/1 entries are the reals 1 and 0, and a product into a zero accumulator is the plain sum over the
  contracted axis; so entry (p, q) of the result is A (p, q) plus the sum over the rows k whose label is
  g · 1024 + p of X (k, q).
-/
import proofs.«143039_j2877628088531_2_alg».proof.Proof.Gen.KernelIdeal.Skeleton
import proofs.«143039_j2877628088531_2_alg».proof.Proof.LibTransposedLhsDot
import proofs.«143039_j2877628088531_2_alg».proof.Proof.LibKeepdims
import proofs.«143039_j2877628088531_2_alg».proof.Proof.SegSum
import Idealize.ShloMosaic.Lib.Pipeline.Value
import Idealize.ShloMosaic.Lib.ValueIdx
import Idealize.ShloMosaic.Lib.ValueLayout

noncomputable section

open scoped BigOperators

namespace Cert.KernelIdeal.Payload

open Cert.KernelIdeal Cert.KernelIdeal.Gen Idealize.ShloMosaic Idealize.ShloMosaic.ValueIdx

/-- The label column spread over the lanes: entry (k, p) is row k's label. -/
theorem label_word (v7 : IVec S2000x1 32) (k : Fin 2000) (p : Fin 1024) :
    broadcastTo S2000x1024 (shapeCast S2000x1 v7 shapeCasts_S2000x1_S2000x1) broadcasts_S2000x1_S2000x1024 (ix2 k p)
      = v7 (ix2 k 0) := by
  rw [shapeCast_self]
  exact Cert.Keepdims.broadcastTo_a1_ab_apply v7 _ k p

/-- The segment numbers spread over the rows: entry (k, p) is the word of segment g · 1024 + p. -/
theorem segment_word (g : ℕ) (k : Fin 2000) (p : Fin 1024) :
    broadcastTo S2000x1024
        (addi (iota .tc S1x1024 32 [1] iota_S1x1024_d1_w32)
          (broadcast S1x1024 (Scalar.muli (BitVec.ofNat 32 g) 1024#32)))
        broadcasts_S1x1024_S2000x1024 (ix2 k p)
      = BitVec.ofNat 32 (g * 1024 + p.val) := by
  refine (broadcastTo_1b_ab_apply _ _ k p).trans ?_
  show IntOp.addi (iota .tc S1x1024 32 [1] iota_S1x1024_d1_w32 (ix2 (0 : Fin 1) p))
      (Scalar.muli (BitVec.ofNat 32 g) 1024#32) = _
  rw [iota_single_apply]
  exact Cert.SegSum.lane_word p.val g

/-- The 0/1 matrix at entry (k, p): 1 when row k's label is segment g · 1024 + p, else 0. -/
theorem onehot_entry (g : ℕ) (v7 : IVec S2000x1 32) (k : Fin 2000) (p : Fin 1024) :
    (truncf .bf16
        (sitofp (F := Ideal) .f32
          (extui 32
            (cmpi .eq
              (broadcastTo S2000x1024 (shapeCast S2000x1 v7 shapeCasts_S2000x1_S2000x1) broadcasts_S2000x1_S2000x1024)
              (broadcastTo S2000x1024
                (addi (iota .tc S1x1024 32 [1] iota_S1x1024_d1_w32)
                  (broadcast S1x1024 (Scalar.muli (BitVec.ofNat 32 g) 1024#32)))
                broadcasts_S1x1024_S2000x1024))
            natLt_1_32))
        bitsLt_bf16_f32 : FVec Ideal S2000x1024 .bf16) (ix2 k p)
      = if v7 (ix2 k 0) = BitVec.ofNat 32 (g * 1024 + p.val) then 1 else 0 := by
  have hA := label_word v7 k p
  have hB := segment_word g k p
  refine Eq.trans ?_ (Cert.SegSum.onehot_word (v7 (ix2 k 0)) (BitVec.ofNat 32 (g * 1024 + p.val)))
  rw [← hA, ← hB]
  rfl

/-- The zero block is zero at every entry. -/
theorem pay1_apply (j : S1024x512.Idx) : k0_pay1 (F := Ideal) j = 0 := by
  unfold k0_pay1
  rw [shapeCast_self]
  exact Ideal.ofBits_zero_f32

/-- The running block after a row block: what it held, plus the rows of the block whose label is the entry's
    segment. -/
theorem pay2_apply (i : grid0.Coords) (v7 : Vec Ideal S2000x1 .i32) (v15 : Vec Ideal S2000x512 .f32)
    (v18 : Vec Ideal S1024x512 .f32) (p : Fin 1024) (q : Fin 512) :
    k0_pay2 (F := Ideal) i v7 v15 v18 (ix2 p q)
      = v18 (ix2 p q) + ∑ k : Fin 2000,
          if v7 (ix2 k 0) = BitVec.ofNat 32 ((i 0).val * 1024 + p.val) then v15 (ix2 k q) else 0 := by
  unfold k0_pay2
  rw [shapeCast_self]
  have hd : dot_S2000x1024_S2000x512_S1024x512_0_0_1_1_n_n = Cert.LibTransposedLhsDot.dims 2000 1024 512 := rfl
  rw [hd]
  refine congrArg (v18 (ix2 p q) + ·) ?_
  refine (Cert.LibTransposedLhsDot.matmul_zero_apply (K := 2000) (M := 1024) (N := 512) none _ _ p q).trans ?_
  refine Finset.sum_congr rfl fun k _ => ?_
  rw [onehot_entry (i 0).val v7 k p]
  show (if v7 (ix2 k 0) = BitVec.ofNat 32 ((i 0).val * 1024 + p.val) then (1 : EReal) else 0) * v15 (ix2 k q) = _
  split_ifs
  · exact one_mul _
  · exact zero_mul _

end Cert.KernelIdeal.Payload

end
-- ==== Proof.KernelBlocks.lean ====
/-
  Where a grid point's blocks sit in the arrays.

  The grid has 2 segment blocks (outer) of 100 row blocks (inner): point t is segment block t / 100 and row block
  t % 100. Its block of X is rows (t % 100) · 2000 … + 1999, all 512 columns; its block of the label column is the
  same rows; its output block is rows (t / 100) · 1024 … + 1023. The label column the region reads is the host's cast
  of the label vector to a column, so its entry (r, 0) is the vector's entry r; the column of divisors the host
  prepares before the region is the cast of the clamped counts.
-/
import proofs.«143039_j2877628088531_2_alg».proof.Proof.Gen.KernelIdeal.Frame
import proofs.«143039_j2877628088531_2_alg».proof.Proof.LibKeepdims
import proofs.«143039_j2877628088531_2_alg».proof.Proof.SegSum
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

/-- Point t's coordinates: segment block t / 100, row block t % 100. -/
theorem coords_fact : ∀ t : Fin cfg0.N, (grid0.coords t 0).val = t.val / 100 ∧ (grid0.coords t 1).val = t.val % 100 :=
  (by decide +kernel : ∀ t : Fin grid0.N, (grid0.coords t 0).val = t.val / 100 ∧ (grid0.coords t 1).val = t.val % 100)

/-- The block numbers of the three windows at point t. -/
theorem idx_facts : ∀ t : Fin cfg0.N,
    win0_0.index t (0 : Fin 2) = t.val % 100 ∧ win0_0.index t (1 : Fin 2) = 0
    ∧ win0_1.index t (0 : Fin 2) = t.val % 100 ∧ win0_1.index t (1 : Fin 2) = 0
    ∧ win0_2.index t (0 : Fin 2) = t.val / 100 ∧ win0_2.index t (1 : Fin 2) = 0 :=
  (by decide +kernel : ∀ t : Fin grid0.N, _)

variable (m : (ℓ : Loc nD τ sig) → Buf (Elt Ideal) ℓ)

/-- The matrix X as the region finds it. -/
abbrev X (c : Dev nD) : (⟨2, ![200000, 512]⟩ : Shape).Idx → EReal := V m c main_arg0
/-- The label column as the region finds it. -/
abbrev L (c : Dev nD) : (⟨2, ![200000, 1]⟩ : Shape).Idx → BitVec 32 := V m c main_v0

/-- Point t's block of X, as the body finds it staged. -/
abbrev xblk (c : Dev nD) (t : Fin cfg0.N) : (⟨2, ![2000, 512]⟩ : Shape).Idx → EReal := iblk m c 0 t
/-- Point t's block of the label column, as the body finds it staged. -/
abbrev lblk (c : Dev nD) (t : Fin cfg0.N) : (⟨2, ![2000, 1]⟩ : Shape).Idx → BitVec 32 := iblk m c 1 t

/-- Entry (k, q) of point t's block of X is X's entry in row (t % 100) · 2000 + k. -/
theorem iblk0_apply (c : Dev nD) (t : Fin cfg0.N) (k : Fin 2000) (q : Fin 512) :
    xblk m c t (ix2 k q) = Cert.SegSum.rowOr (X m c) (t.val % 100 * 2000 + k.val) q := by
  have hk : k.val < 2000 := k.isLt
  have h : t.val % 100 * 2000 + k.val < 200000 := by have := Nat.mod_lt t.val (by decide : 100 > 0); omega
  rw [Cert.SegSum.rowOr_lt (X m c) _ h]
  unfold xblk iblk
  rw [View.read_apply]
  show V m c main_arg0 _ = V m c main_arg0 _
  refine congrArg (V m c main_arg0) (funext fun a => Fin.ext ?_)
  obtain ⟨e0, e1, -, -, -, -⟩ := idx_facts t
  match a with
  | ⟨0, _⟩ => show win0_0.index t (0 : Fin 2) * 2000 + 1 * k.val = t.val % 100 * 2000 + k.val; rw [e0]; omega
  | ⟨1, _⟩ => show win0_0.index t (1 : Fin 2) * 512 + 1 * q.val = q.val; rw [e1]; omega

/-- Entry (k, 0) of point t's block of the label column is the label of row (t % 100) · 2000 + k. -/
theorem iblk1_apply (c : Dev nD) (t : Fin cfg0.N) (k : Fin 2000) :
    lblk m c t (ix2 k 0) = Cert.SegSum.labelOr (L m c) (t.val % 100 * 2000 + k.val) := by
  have hk : k.val < 2000 := k.isLt
  have h : t.val % 100 * 2000 + k.val < 200000 := by have := Nat.mod_lt t.val (by decide : 100 > 0); omega
  rw [Cert.SegSum.labelOr_lt (L m c) _ h]
  unfold lblk iblk
  rw [View.read_apply]
  show V m c main_v0 _ = V m c main_v0 _
  refine congrArg (V m c main_v0) (funext fun a => Fin.ext ?_)
  obtain ⟨-, -, e0, e1, -, -⟩ := idx_facts t
  match a with
  | ⟨0, _⟩ => show win0_1.index t (0 : Fin 2) * 2000 + 1 * k.val = t.val % 100 * 2000 + k.val; rw [e0]; omega
  | ⟨1, _⟩ => show win0_1.index t (1 : Fin 2) * 1 + 1 * (0 : Fin 1).val = (0 : Fin 1).val; rw [e1]; rfl

/-- The label column is the host's cast of the label vector to a column. -/
theorem V_main_v0 (c : Dev nD) :
    (V m c main_v0 : S200000x1.Idx → BitVec 32)
      = shapeCast S200000x1 (m ((c : Thread nD τ).loc main_arg1)) shapeCasts_S200000_S200000x1 := by
  show StableHlo.after hostOps0 (fun b => m (c, b)) (Proc.devRef .tc main_v0) = _
  after_results
  rfl

/-- So its entry (r, 0) is the label vector's entry r. -/
theorem L_apply (c : Dev nD) (r : Fin 200000) :
    L m c (ix2 r 0) = m ((c : Thread nD τ).loc main_arg1) (ix1 r) := by
  show (V m c main_v0 : S200000x1.Idx → BitVec 32) (ix2 r 0) = _
  rw [V_main_v0]
  exact Cert.Keepdims.shapeCast_a_a1_apply _ _ r 0

/-- The column of divisors the host prepares before the region: the per-segment counts, clamped below at one, cast
    to a column. -/
theorem V_main_v7 (c : Dev nD) :
    (V m c main_v7 : S2048x1.Idx → EReal)
      = shapeCast S2048x1
          (maximumf (F := Ideal)
            (Host.scatterAdd (F := Ideal) scatter_S2048_S200000x1_S200000_n_0_0_1
              (broadcastInDim S2048 ![] bcast_S_S2048 (constant (F := Ideal) S_ .f32 0x00000000#32))
              (broadcastInDim S200000x1 ![0] bcast_S200000_S200000x1_0 (m ((c : Thread nD τ).loc main_arg1)))
              (broadcastInDim S200000 ![] bcast_S_S200000 (constant (F := Ideal) S_ .f32 0x3F800000#32)))
            (broadcastInDim S2048 ![] bcast_S_S2048 (constant (F := Ideal) S_ .f32 0x3F800000#32)))
          shapeCasts_S2048_S2048x1 := by
  show StableHlo.after hostOps0 (fun b => m (c, b)) (Proc.devRef .tc main_v7) = _
  after_results
  rfl

end Cert.KernelIdeal.Blocks

end
-- ==== Proof.KernelAccum.lean ====
/-
  The array of segment sums the region leaves.

  Within one segment block the 100 row blocks are visited in order, and the scratch block after row block j holds,
  at entry (p, q), the contributions to segment g · 1024 + p in column q of the first (j + 1) · 2000 rows: at the
  first row block the zero block plus the block's rows, afterwards what the previous point left plus the block's rows
  (induction over the grid points; a sum over a range of row numbers grows by one block of 2000). At the last row block
  the range is all 200000 rows and the output block is a copy of the scratch, so the block written back is the block
  of rows g · 1024 … of the array S whose entry (s, q) is the sum over all rows r labelled s of X (r, q). The two
  written blocks tile the 2048 rows, so the array ends at S.
-/
import proofs.«143039_j2877628088531_2_alg».proof.Proof.KernelPieces
import proofs.«143039_j2877628088531_2_alg».proof.Proof.KernelPayload
import proofs.«143039_j2877628088531_2_alg».proof.Proof.KernelBlocks

set_option maxRecDepth 16384

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.KernelIdeal.Blocks

variable (m : (ℓ : Loc nD τ sig) → Buf (Elt Ideal) ℓ)

/-- Point t's row block contributes, to entry (p, q) of its segment block, the terms of its 2000 rows. -/
theorem block_term (c : Dev nD) (t : Fin cfg0.N) (p : Fin 1024) (q : Fin 512) :
    (∑ k : Fin 2000,
        if lblk m c t (ix2 k 0) = BitVec.ofNat 32 ((grid0.coords t 0).val * 1024 + p.val)
          then xblk m c t (ix2 k q) else 0)
      = ∑ k : Fin 2000,
          Cert.SegSum.term (X m c) (L m c) (t.val / 100 * 1024 + p.val) q (t.val % 100 * 2000 + k.val) := by
  refine Finset.sum_congr rfl fun k _ => ?_
  rw [iblk0_apply m c t k q, iblk1_apply m c t k, (coords_fact t).1]
  rfl

/-- The sums of the first (n % 100 + 1) row blocks for segment block n / 100, at entry (p, q). -/
def running (c : Dev nD) (n : ℕ) (p : Fin 1024) (q : Fin 512) : EReal :=
  ∑ r ∈ Finset.range ((n % 100 + 1) * 2000), Cert.SegSum.term (X m c) (L m c) (n / 100 * 1024 + p.val) q r

/-- At the first row block of a segment block the scratch ends at that block's rows. -/
theorem step_first (c : Dev nD) (t : Fin cfg0.N) (h0 : t.val % 100 = 0) (p : Fin 1024) (q : Fin 512) :
    (outsAt0 m c t.val t.isLt).2 (ix2 p q) = running m c t.val p q := by
  have h1 : ¬ t.val % 100 = 99 := by omega
  rw [outsAt0_A m c t h0 h1]
  dsimp only
  rw [Cert.KernelIdeal.Pieces.scratch_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)]
  refine (Cert.KernelIdeal.Payload.pay2_apply (grid0.coords t) (lblk m c t) (xblk m c t)
    (k0_pay1 (F := Ideal)) p q).trans ?_
  rw [Cert.KernelIdeal.Payload.pay1_apply, zero_add, block_term m c t p q]
  unfold running
  rw [h0, Cert.SegSum.sum_range_first]

/-- At every other row block the scratch ends at what the previous point left plus the block's rows. -/
theorem step_next (c : Dev nD) (t : Fin cfg0.N) (h0 : ¬ t.val % 100 = 0) (p : Fin 1024) (q : Fin 512) :
    (outsAt0 m c t.val t.isLt).2 (ix2 p q)
      = (outsAt0 m c (t.val - 1) (Nat.lt_of_le_of_lt (Nat.sub_le _ _) t.isLt)).2 (ix2 p q)
        + ∑ k : Fin 2000,
            Cert.SegSum.term (X m c) (L m c) (t.val / 100 * 1024 + p.val) q (t.val % 100 * 2000 + k.val) := by
  by_cases h1 : t.val % 100 = 99
  · rw [outsAt0_C m c t h0 h1]
    dsimp only
    rw [Cert.KernelIdeal.Pieces.scratch_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2]
    refine (Cert.KernelIdeal.Payload.pay2_apply (grid0.coords t) (lblk m c t) (xblk m c t)
      (outsAt0 m c (t.val - 1) (Nat.lt_of_le_of_lt (Nat.sub_le _ _) t.isLt)).2 p q).trans ?_
    rw [block_term m c t p q]
  · rw [outsAt0_B m c t h0 h1]
    dsimp only
    rw [Cert.KernelIdeal.Pieces.scratch_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2]
    refine (Cert.KernelIdeal.Payload.pay2_apply (grid0.coords t) (lblk m c t) (xblk m c t)
      (outsAt0 m c (t.val - 1) (Nat.lt_of_le_of_lt (Nat.sub_le _ _) t.isLt)).2 p q).trans ?_
    rw [block_term m c t p q]

/-- After every point the scratch holds the running sums of its segment block. -/
theorem scratch_eq (c : Dev nD) : ∀ (n : ℕ) (h : n < cfg0.N) (p : Fin 1024) (q : Fin 512),
    (outsAt0 m c n h).2 (ix2 p q) = running m c n p q
  | 0, h, p, q => step_first m c ⟨0, h⟩ rfl p q
  | n + 1, h, p, q => by
    by_cases h0 : (n + 1) % 100 = 0
    · exact step_first m c ⟨n + 1, h⟩ h0 p q
    · refine (step_next m c ⟨n + 1, h⟩ h0 p q).trans ?_
      show (outsAt0 m c n _).2 (ix2 p q)
          + ∑ k : Fin 2000, Cert.SegSum.term (X m c) (L m c) ((n + 1) / 100 * 1024 + p.val) q ((n + 1) % 100 * 2000 + k.val)
        = running m c (n + 1) p q
      rw [scratch_eq c n _ p q]
      unfold running
      have e1 : (n + 1) % 100 = n % 100 + 1 := by omega
      have e2 : (n + 1) / 100 = n / 100 := by omega
      rw [e1, e2]
      exact (Cert.SegSum.sum_range_block _ 2000 (n % 100 + 1)).symm

/-- At the last row block the output block is a copy of the scratch. -/
theorem out_eq_scratch (c : Dev nD) (t : Fin cfg0.N) (h1 : t.val % 100 = 99) :
    (outsAt0 m c t.val t.isLt).1 = (outsAt0 m c t.val t.isLt).2 := by
  have h0 : ¬ t.val % 100 = 0 := by omega
  rw [outsAt0_C m c t h0 h1]
  dsimp only
  rw [Cert.KernelIdeal.Pieces.out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2,
    Cert.KernelIdeal.Pieces.scratch_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2]

/-- The array of segment sums: entry (s, q) adds X (r, q) over the rows r whose label is s. -/
def sums (c : Dev nD) : (⟨2, ![2048, 512]⟩ : Shape).Idx → EReal := fun i =>
  ∑ r : Fin 200000, if L m c (ix2 r 0) = BitVec.ofNat 32 (i 0).val then X m c (ix2 r (i 1)) else 0

/-- Entry (p, q) of point t's output block, read off any array, is the array's entry in row (t / 100) · 1024 + p. -/
theorem read_oblk (G : (⟨2, ![2048, 512]⟩ : Shape).Idx → EReal) (t : Fin cfg0.N) (p : Fin 1024) (q : Fin 512)
    (hs : t.val / 100 * 1024 + p.val < 2048) :
    ((cfg0.win 2).blk t).view.read (Elt Ideal) G (ix2 p q) = G (ix2 (⟨t.val / 100 * 1024 + p.val, hs⟩ : Fin 2048) q) := by
  rw [View.read_apply]
  show G _ = G _
  refine congrArg G (funext fun a => Fin.ext ?_)
  obtain ⟨-, -, -, -, e0, e1⟩ := idx_facts t
  match a with
  | ⟨0, _⟩ => show win0_2.index t (0 : Fin 2) * 1024 + 1 * p.val = t.val / 100 * 1024 + p.val; rw [e0]; omega
  | ⟨1, _⟩ => show win0_2.index t (1 : Fin 2) * 512 + 1 * q.val = q.val; rw [e1]; omega

/-- What a last row block writes back is its segment block's rows of the array of segment sums. -/
theorem flushed_eq (c : Dev nD) (t : Fin cfg0.N) (hf : (cfg0.win 2).flush t = true) :
    (dats m 0 c).flushed 2 t = ((cfg0.win 2).blk t).view.read (Elt Ideal) (sums m c) := by
  have h1 : t.val % 100 = 99 := (flush0_2 t).mp hf
  have hN : t.val < 200 := lt_of_lt_of_eq t.isLt (show cfg0.N = 200 from N_0)
  show (cfg0.win 2).cut (grid0.coords t) ((dats m 0 c).after 2 t) = _
  rw [after0_2, out_eq_scratch m c t h1]
  funext j
  obtain ⟨p, q, rfl⟩ : ∃ (p : Fin 1024) (q : Fin 512), j = ix2 p q := ⟨j 0, j 1, eq_ix2 j⟩
  have hp : p.val < 1024 := p.isLt
  have hs : t.val / 100 * 1024 + p.val < 2048 := by omega
  rw [read_oblk (sums m c) t p q hs]
  show (outsAt0 m c t.val t.isLt).2 (ix2 p q) = _
  rw [scratch_eq m c t.val t.isLt p q]
  unfold running sums
  rw [h1, show (99 + 1) * 2000 = 200000 from by norm_num]
  exact Cert.SegSum.sum_term_all (X m c) (L m c) (t.val / 100 * 1024 + p.val) q

set_option maxRecDepth 131072 in
/-- An index of the array is in point t's output block iff each coordinate is in the block's range. -/
theorem mem_blk (t : Fin cfg0.N) (i : S2048x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v8).slice (win0_2.rect t)).set ↔ _
  rw [View.set_slice_whole, Rect.mem_set_unit]
  exact Iff.rfl

/-- Every row of the array is in the block some last row block writes back. -/
theorem cover (i : S2048x512.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  have hN : cfg0.N = 200 := N_0
  let t : Fin cfg0.N := ⟨(i 0).val / 1024 * 100 + 99, by rw [hN]; omega⟩
  have htv : t.val = (i 0).val / 1024 * 100 + 99 := rfl
  refine ⟨t, (flush0_2 t).mpr (by rw [htv]; omega), ?_⟩
  rw [mem_blk]
  obtain ⟨-, -, -, -, e0, e1⟩ := idx_facts t
  intro a
  match a with
  | ⟨0, _⟩ =>
    show win0_2.index t (0 : Fin 2) * 1024 ≤ (i 0).val ∧ (i 0).val < win0_2.index t (0 : Fin 2) * 1024 + 1024
    rw [e0, htv]; omega
  | ⟨1, _⟩ =>
    show win0_2.index t (1 : Fin 2) * 512 ≤ (i 1).val ∧ (i 1).val < win0_2.index t (1 : Fin 2) * 512 + 512
    rw [e1]; omega

/-- So the region leaves the array of segment sums. -/
theorem final (c : Dev nD) : (dats m 0 c).arrAt 2 cfg0.N = sums m c :=
  (dats m 0 c).arrAt_eq_of_cover 2 (sums m c) (fun t hf => flushed_eq m c t hf) cover

end Cert.KernelIdeal.Accum

end
-- ==== Proof.KernelTail.lean ====
/-
  The two host operations after the region.

  After the region the host spreads the column of divisors over the 512 columns and divides the array the region
  wrote by it. The divisor column was written before the region and the region does not touch it, so the result is
  the quotient of the region's final output array by the spread of the column as the region found it.
-/
import proofs.«143039_j2877628088531_2_alg».proof.Proof.Gen.KernelIdeal.Frame
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- The result buffer after the host's last two operations. -/
theorem tail_v10 (c : Dev nD) :
    Pipeline.afterTail₀ cfgs (dats m) 0 (V0 m) [hostOps1] c main_v10
      = Host.divf ((dats m 0 c).arrAt 2 cfg0.N)
          (broadcastInDim S2048x512 ![0, 1] bcast_S2048x1_S2048x512_0_1 (V m c main_v7)) := by
  unfold Pipeline.afterTail₀
  show StableHlo.after hostOps1 _ (Proc.devRef .tc main_v10) = _
  after_results
  have e8 := Pipeline.withArrays_arr spec0 launch0.win.arr_inj c (V0 m c)
    (fun w => (dats m 0 c).arrAt w (cfgs 0).N) 2
  have e7 := Pipeline.withArrays_of_ne spec0 c (V0 m c) (fun w => (dats m 0 c).arrAt w (cfgs 0).N) main_v7
    (by decide : ∀ w, Pipeline.arrRef spec0 w ≠ main_v7)
  rw [show Pipeline.withArrays (cfgs 0).spec c (V0 m c) (fun w => (dats m 0 c).arrAt w (cfgs 0).N)
      (Proc.devRef .tc main_v8) = (dats m 0 c).arrAt 2 (cfgs 0).N from e8,
    show Pipeline.withArrays (cfgs 0).spec c (V0 m c) (fun w => (dats m 0 c).arrAt w (cfgs 0).N)
      (Proc.devRef .tc main_v7) = V0 m c (Proc.devRef .tc main_v7) from e7]

end Cert.KernelIdeal.Tail

end
-- ==== Proof.KernelRun.lean ====
/-
  The kernel's run, with its result named and read at an entry.

  The result buffer ends at the quotient of the array of segment sums by the divisor column spread over the columns;
  the two argument arrays end as they were. At entry (s, q) the result is the sum over the rows labelled s of
  X (r, q), divided by the clamped count of segment s, everything read off the argument arrays as launched.
-/
import proofs.«143039_j2877628088531_2_alg».proof.Proof.KernelAccum
import proofs.«143039_j2877628088531_2_alg».proof.Proof.KernelTail

set_option maxRecDepth 16384

noncomputable section

open scoped BigOperators
open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx

variable (m : (ℓ : Loc nD τ sig) → Buf (Elt Ideal) ℓ) (ρ : Dev nD → PrngReg)

/-- The per-segment counts of a label vector, clamped below at one, as the host computes them. -/
def counts (x1 : S200000.Idx → BitVec 32) : S2048.Idx → EReal :=
  maximumf (F := Ideal)
    (Host.scatterAdd (F := Ideal) scatter_S2048_S200000x1_S200000_n_0_0_1
      (broadcastInDim S2048 ![] bcast_S_S2048 (constant (F := Ideal) S_ .f32 0x00000000#32))
      (broadcastInDim S200000x1 ![0] bcast_S200000_S200000x1_0 x1)
      (broadcastInDim S200000 ![] bcast_S_S200000 (constant (F := Ideal) S_ .f32 0x3F800000#32)))
    (broadcastInDim S2048 ![] bcast_S_S2048 (constant (F := Ideal) S_ .f32 0x3F800000#32))

/-- The matrix X as launched. -/
abbrev A0 (c : Dev nD) : (⟨2, ![200000, 512]⟩ : Shape).Idx → EReal := m ((c : Thread nD τ).loc main_arg0)
/-- The label vector as launched. -/
abbrev A1 (c : Dev nD) : (⟨1, ![200000]⟩ : Shape).Idx → BitVec 32 := m ((c : Thread nD τ).loc main_arg1)
/-- The divisor column the host prepares before the region. -/
abbrev D (c : Dev nD) : (⟨2, ![2048, 1]⟩ : Shape).Idx → EReal := V m c main_v7

/-- The result: the segment sums over the divisor column spread over the columns. -/
def result (c : Dev nD) : (⟨2, ![2048, 512]⟩ : Shape).Idx → EReal :=
  Host.divf (F := Ideal) (φ := .f32) (Cert.KernelIdeal.Accum.sums m c)
    (broadcastInDim S2048x512 ![0, 1] bcast_S2048x1_S2048x512_0_1 (D m c))

/-- Every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v10 (Pipeline.mem_restRefs_of main_v10 (by decide) (by decide))).trans
        ((Cert.KernelIdeal.Tail.tail_v10 m c).trans (by rw [Cert.KernelIdeal.Accum.final m c]; rfl)),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

/-- The result at entry (s, q), over the argument arrays as launched. -/
theorem result_apply (c : Dev nD) (s : Fin 2048) (q : Fin 512) :
    result m c (ix2 s q)
      = FloatOps.hostDivf (F := Ideal) (φ := .f32)
          (∑ r : Fin 200000, if A1 m c (ix1 r) = BitVec.ofNat 32 s.val then A0 m c (ix2 r q) else 0)
          (counts (A1 m c) (ix1 s)) := by
  have hb : broadcastInDim S2048x512 ![0, 1] bcast_S2048x1_S2048x512_0_1 (D m c) (ix2 s q)
      = D m c (ix2 s (0 : Fin 1)) :=
    broadcastInDim_apply _ bcast_S2048x1_S2048x512_0_1 (D m c) (ix2 s q) (ix2 s (0 : Fin 1))
      (fun a => match a with
        | ⟨0, _⟩ => by show s.val = if (2048 : Nat) = 1 then 0 else s.val; rw [if_neg (by decide)]
        | ⟨1, _⟩ => by show 0 = if (1 : Nat) = 1 then 0 else q.val; rw [if_pos rfl])
  have hv : D m c (ix2 s (0 : Fin 1)) = counts (A1 m c) (ix1 s) := by
    show (V m c main_v7 : S2048x1.Idx → EReal) (ix2 s (0 : Fin 1)) = _
    rw [Cert.KernelIdeal.Blocks.V_main_v7 m c]
    exact Cert.Keepdims.shapeCast_a_a1_apply _ _ s 0
  have hsum : Cert.KernelIdeal.Accum.sums m c (ix2 s q)
      = ∑ r : Fin 200000, if A1 m c (ix1 r) = BitVec.ofNat 32 s.val then A0 m c (ix2 r q) else 0 := by
    unfold Cert.KernelIdeal.Accum.sums
    refine Finset.sum_congr rfl fun r _ => ?_
    show (if Cert.KernelIdeal.Blocks.L m c (ix2 r 0) = BitVec.ofNat 32 s.val
        then Cert.KernelIdeal.Blocks.X m c (ix2 r q) else 0) = _
    have hx : Cert.KernelIdeal.Blocks.X m c = A0 m c := V_main_arg0 m c
    rw [Cert.KernelIdeal.Blocks.L_apply m c r, hx]
  show FloatOps.hostDivf (F := Ideal) (φ := .f32) (Cert.KernelIdeal.Accum.sums m c (ix2 s q))
      (broadcastInDim S2048x512 ![0, 1] bcast_S2048x1_S2048x512_0_1 (D m c) (ix2 s q)) = _
  rw [hb, hv, hsum]

end Cert.KernelIdeal.Run

end
-- ==== Proof.LibRowScatter.lean ====
/-
  An accumulating scatter of whole rows, read at one entry.

  The operand is an n×c matrix, the updates an e×c matrix, and the scatter indices an e×1 column of integers: update
  row r is added into operand row t(r), where t(r) is entry (r, 0) of the indices read as a SIGNED integer and NOT
  clamped; a row whose target is outside [0, n) is dropped. On the extended reals the accumulated result at entry
  (s, q) is therefore the operand's entry plus the sum, over the update rows r whose target is s, of update entry
  (r, q) — written below as a sum over all r of an `if`. Stated for the dimension record `rowDims n e c`
  (update window axis [1], inserted window axis [0], scatter axis to operand axis [0], index vector axis 1), for any
  extents and any integer width; a printed record with those four lists is this record (they differ in a proof field).
-/
import Idealize.ShloMosaic.Lib.ValueIdx
import Idealize.ShloMosaic.PureOps.Ideal.Laws

noncomputable section

open scoped BigOperators

namespace Cert.LibRowScatter

open Idealize.ShloMosaic Idealize.ShloMosaic.ValueIdx

/-- Scatter the rows of an e×c matrix into an n×c matrix at e row numbers laid as a column e×1. -/
def rowDims (n e c : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

variable {n e c w : ℕ} (wf : ScatterDims.WF ⟨2, ![n, c]⟩ ⟨2, ![e, 1]⟩ ⟨2, ![e, c]⟩ [1] [0] [0] 1)

/-- On the row axis the window of update entry (r, q) starts at the r-th scatter index, read signed. -/
theorem start_zero (r : Fin e) (q : Fin c) (idx : IVec ⟨2, ![e, 1]⟩ w) :
    (rowDims n e c wf).start (ix2 r q) idx 0 = (idx (ix2 r 0)).toInt := by
  unfold ScatterDims.start
  rw [dif_pos (show (0 : Fin 2) ∈ (rowDims n e c wf).scatterDimsToOperandDims from List.mem_singleton.mpr rfl)]
  refine congrArg (fun k => (idx k).toInt) ?_
  funext b
  match b with
  | ⟨0, _⟩ => rfl
  | ⟨1, _⟩ => rfl

/-- On the column axis the window starts at 0: no scatter index names that axis. -/
theorem start_one (r : Fin e) (q : Fin c) (idx : IVec ⟨2, ![e, 1]⟩ w) :
    (rowDims n e c wf).start (ix2 r q) idx 1 = 0 := by
  unfold ScatterDims.start
  rw [dif_neg (show ¬ (1 : Fin 2) ∈ (rowDims n e c wf).scatterDimsToOperandDims from by
    intro h; exact absurd (congrArg Fin.val (List.mem_singleton.mp h)) (by decide : ¬ (1 : ℕ) = 0))]

/-- The row axis is an inserted axis: the window has no extent along it. -/
theorem window_zero (r : Fin e) (q : Fin c) : (rowDims n e c wf).window (ix2 r q) 0 = 0 := by
  unfold ScatterDims.window
  rw [dif_neg (show ¬ (0 : Fin 2) ∈ (rowDims n e c wf).sKept from by
    show ¬ (0 : Fin 2) ∈ (List.finRange 2).filter (fun a => a ∉ [(0 : Fin 2)])
    decide)]

/-- Along the column axis the window coordinate of update entry (r, q) is q. -/
theorem window_one (r : Fin e) (q : Fin c) : (rowDims n e c wf).window (ix2 r q) 1 = q.val := by
  unfold ScatterDims.window
  rw [dif_pos (show (1 : Fin 2) ∈ (rowDims n e c wf).sKept from by
    show (1 : Fin 2) ∈ (List.finRange 2).filter (fun a => a ∉ [(0 : Fin 2)])
    decide)]
  rfl

/-- Update entry (r, q') lands on operand entry (s, q) exactly when the r-th scatter index, read signed, is s and
    the columns agree. -/
theorem resultIdx?_eq_some_iff (r : Fin e) (q' : Fin c) (idx : IVec ⟨2, ![e, 1]⟩ w) (s : Fin n) (q : Fin c) :
    (rowDims n e c wf).resultIdx? (ix2 r q') idx = some (ix2 s q)
      ↔ (idx (ix2 r 0)).toInt = (s.val : ℤ) ∧ q' = q := by
  have hs0 := start_zero wf r q' idx
  have hs1 := start_one wf r q' idx
  have hw0 := window_zero wf r q'
  have hw1 := window_one wf r q'
  have hsn : s.val < n := s.isLt
  have hqc : q'.val < c := q'.isLt
  unfold ScatterDims.resultIdx?
  constructor
  · intro h
    split at h
    · have h' := Option.some.inj h
      have h0 : ((rowDims n e c wf).start (ix2 r q') idx 0 + ((rowDims n e c wf).window (ix2 r q') 0 : ℕ)).toNat = s.val :=
        congrArg (fun f : (⟨2, ![n, c]⟩ : Shape).Idx => (f 0).val) h'
      have h1 : ((rowDims n e c wf).start (ix2 r q') idx 1 + ((rowDims n e c wf).window (ix2 r q') 1 : ℕ)).toNat = q.val :=
        congrArg (fun f : (⟨2, ![n, c]⟩ : Shape).Idx => (f 1).val) h'
      rename_i hb
      have hb0 := hb 0
      rw [hs0, hw0] at h0 hb0
      rw [hs1, hw1] at h1
      refine ⟨by omega, Fin.ext (by omega)⟩
    · exact absurd h (by simp)
  · rintro ⟨ht, rfl⟩
    have hall : ∀ a, 0 ≤ (rowDims n e c wf).start (ix2 r q') idx a + ((rowDims n e c wf).window (ix2 r q') a : ℕ)
        ∧ (rowDims n e c wf).start (ix2 r q') idx a + ((rowDims n e c wf).window (ix2 r q') a : ℕ) < (⟨2, ![n, c]⟩ : Shape).size a := by
      intro a
      match a with
      | ⟨0, _⟩ =>
        show 0 ≤ (rowDims n e c wf).start (ix2 r q') idx 0 + ((rowDims n e c wf).window (ix2 r q') 0 : ℕ)
          ∧ (rowDims n e c wf).start (ix2 r q') idx 0 + ((rowDims n e c wf).window (ix2 r q') 0 : ℕ) < (n : ℤ)
        rw [hs0, hw0, ht]; omega
      | ⟨1, _⟩ =>
        show 0 ≤ (rowDims n e c wf).start (ix2 r q') idx 1 + ((rowDims n e c wf).window (ix2 r q') 1 : ℕ)
          ∧ (rowDims n e c wf).start (ix2 r q') idx 1 + ((rowDims n e c wf).window (ix2 r q') 1 : ℕ) < (c : ℤ)
        rw [hs1, hw1]; omega
    rw [dif_pos hall]
    refine congrArg some (funext fun a => Fin.ext ?_)
    match a with
    | ⟨0, _⟩ =>
      show ((rowDims n e c wf).start (ix2 r q') idx 0 + ((rowDims n e c wf).window (ix2 r q') 0 : ℕ)).toNat = s.val
      rw [hs0, hw0, ht]; omega
    | ⟨1, _⟩ =>
      show ((rowDims n e c wf).start (ix2 r q') idx 1 + ((rowDims n e c wf).window (ix2 r q') 1 : ℕ)).toNat = q'.val
      rw [hs1, hw1]; omega

/-- The accumulating row scatter at entry (s, q), on the extended reals: the operand's entry plus the sum over the
    update rows whose signed target is s of their entry in column q. -/
theorem scatterAdd_apply {φ : FTy} (x : FVec Ideal ⟨2, ![n, c]⟩ φ) (idx : IVec ⟨2, ![e, 1]⟩ w)
    (upd : FVec Ideal ⟨2, ![e, c]⟩ φ) (s : Fin n) (q : Fin c) :
    Host.scatterAdd (F := Ideal) (rowDims n e c wf) x idx upd (ix2 s q)
      = x (ix2 s q) + ∑ r : Fin e, if (idx (ix2 r 0)).toInt = (s.val : ℤ) then upd (ix2 r q) else 0 := by
  show x (ix2 s q) + ∑ j ∈ Finset.univ.filter (fun j => (rowDims n e c wf).resultIdx? j idx = some (ix2 s q)), upd j = _
  congr 1
  rw [Finset.sum_filter, sum_idx2]
  refine Finset.sum_congr rfl fun r _ => ?_
  simp only [resultIdx?_eq_some_iff]
  by_cases hc : (idx (ix2 r 0)).toInt = (s.val : ℤ)
  · simp only [hc, true_and]
    rw [Finset.sum_ite_eq' Finset.univ q (fun b => upd (ix2 r b))]
    simp
  · simp [hc]

end Cert.LibRowScatter

end
-- ==== Proof.RefValue.lean ====
/-
  The reference at one entry.

  The reference scatters the rows of X into a zero 2048×512 array at the rows named by the label vector (laid as a
  column), accumulating, and divides by the column of clamped counts spread over the 512 columns. On the extended reals
  entry (s, q) of the accumulated array is the sum over the rows r whose label, read as a signed integer, is s of
  X (r, q); a segment number is below 2³¹, so "read signed is s" is "is s's word". The divisor at (s, q) is the
  clamped count of segment s.
-/
import proofs.«143039_j2877628088531_2_alg».proof.Proof.Gen.ReferenceIdeal.Read
import proofs.«143039_j2877628088531_2_alg».proof.Proof.LibRowScatter
import proofs.«143039_j2877628088531_2_alg».proof.Proof.SegSum
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The accumulated array at entry (s, q): the rows labelled s, added in column q. -/
theorem sums_apply (x0 : (⟨S200000x512, .f32⟩ : BufTy).Contents (Elt Ideal))
    (x1 : (⟨S200000, .i32⟩ : BufTy).Contents (Elt Ideal)) (s : Fin 2048) (q : Fin 512) :
    val_main_v2 (F := Ideal) x0 x1 (ix2 s q)
      = ∑ r : Fin 200000, if x1 (ix1 r) = BitVec.ofNat 32 s.val then x0 (ix2 r q) else 0 := by
  have hs : s.val < 2147483648 := by have := s.isLt; omega
  unfold val_main_v2
  have hd : scatter_S2048x512_S200000x1_S200000x512_1_0_0_1
      = Cert.LibRowScatter.rowDims 2048 200000 512 scatter_S2048x512_S200000x1_S200000x512_1_0_0_1_wf := rfl
  rw [hd]
  refine (Cert.LibRowScatter.scatterAdd_apply _ (val_main_v0 (F := Ideal)) (val_main_v1 (F := Ideal) x1) x0 s q).trans ?_
  rw [val_main_v0_apply, val_main_cst_apply]
  rw [show (FloatOps.ofBits (F := Ideal) .f32 0x00000000#32 : EReal) = 0 from Ideal.ofBits_zero_f32, zero_add]
  refine Finset.sum_congr rfl fun r _ => ?_
  rw [val_main_v1_apply]
  have hi : idx_main_v1 (ix2 r (0 : Fin 1)) = ix1 r := funext fun a => match a with | ⟨0, _⟩ => rfl
  rw [hi]
  exact if_congr (Cert.SegSum.toInt_eq_iff _ s.val hs) rfl rfl

/-- The divisor at entry (s, q): the clamped count of segment s. -/
theorem divisor_apply (x1 : (⟨S200000, .i32⟩ : BufTy).Contents (Elt Ideal)) (s : Fin 2048) (q : Fin 512) :
    val_main_v10 (F := Ideal) x1 (ix2 s q) = val_main_v8 (F := Ideal) x1 (ix1 s) := by
  rw [val_main_v10_apply, val_main_v9_apply]
  refine congrArg (val_main_v8 (F := Ideal) x1) (funext fun a => ?_)
  match a with
  | ⟨0, _⟩ => rfl

end Cert.ReferenceIdeal.RefValue

end
-- ==== Proof.lean ====
/-
  Mean pooling by segment: a one-hot matrix product, accumulated block by block, against an accumulating scatter.

  Inputs: a matrix X (200000 × 512) of finite floats and a vector of 200000 integer labels. Both programs return, for
  each segment s < 2048 and column q, the sum of X (r, q) over the rows r labelled s, divided by max(count of s, 1);
  a label outside [0, 2048) belongs to no segment on either side (the scatter reads the label signed, does not clamp
  it, and drops a row that lands outside; the kernel compares the label's word with each segment's word).

  The kernel walks a 2 × 100 grid: for segment block g and row block j it forms the 0/1 matrix "row k has label
  g · 1024 + p", multiplies its transpose with the 2000 rows of X on the matrix unit, and adds the product into a
  running block that is zeroed at j = 0 and written out at j = 99; the host then divides by the clamped counts.
  On the extended reals a change of float format is the identity, the product is a plain sum over the 2000 rows, and
  0 · x = 0, 1 · x = x; so by induction over the grid points the running block after row block j holds the
  contributions of the first (j + 1) · 2000 rows, and the array written out is the array of segment sums. The
  reference's accumulating scatter is, entry by entry, the same sum over all 200000 rows. Sums of extended reals
  may be regrouped freely, so the finiteness of X is never used. The clamped counts are computed by the same host
  operations on the same label vector in both programs, and the final division is the same operation.

  The idealization rewrote nothing, so the kernel's idealization is its own text read on the extended reals.
-/
import proofs.«143039_j2877628088531_2_alg».proof.Defs
import proofs.«143039_j2877628088531_2_alg».proof.Proof.Gen.Kernel
import proofs.«143039_j2877628088531_2_alg».proof.Proof.Gen.Kernel.Skeleton
import proofs.«143039_j2877628088531_2_alg».proof.Proof.Gen.Kernel.Launch
import proofs.«143039_j2877628088531_2_alg».proof.Proof.Gen.Kernel.Points
import proofs.«143039_j2877628088531_2_alg».proof.Proof.Gen.Kernel.Frame
import proofs.«143039_j2877628088531_2_alg».proof.Proof.Gen.KernelIdeal
import proofs.«143039_j2877628088531_2_alg».proof.Proof.Gen.KernelIdeal.Skeleton
import proofs.«143039_j2877628088531_2_alg».proof.Proof.Gen.KernelIdeal.Launch
import proofs.«143039_j2877628088531_2_alg».proof.Proof.Gen.KernelIdeal.Points
import proofs.«143039_j2877628088531_2_alg».proof.Proof.Gen.KernelIdeal.Frame
import proofs.«143039_j2877628088531_2_alg».proof.Proof.Gen.ReferenceIdeal
import proofs.«143039_j2877628088531_2_alg».proof.Proof.Gen.Pre_finite_inputs
import proofs.«143039_j2877628088531_2_alg».proof.Proof.Gen.ReferenceIdeal.Run
import proofs.«143039_j2877628088531_2_alg».proof.Proof.Gen.ReferenceIdeal.Read
import proofs.«143039_j2877628088531_2_alg».proof.Proof.KernelRun
import proofs.«143039_j2877628088531_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- Both programs clamp the counts of the same label vector with the same operations. -/
theorem counts_eq (x1 : (⟨Cert.ReferenceIdeal.S200000, .i32⟩ : BufTy).Contents (Elt Ideal)) :
    Cert.ReferenceIdeal.Read.val_main_v8 (F := Ideal) x1 = Cert.KernelIdeal.Run.counts x1 := rfl

/-- Entry by entry the reference's result is the kernel's: the same segment sum over the same clamped count. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v11 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.Run.result m c := by
  funext i
  obtain ⟨s, q, rfl⟩ : ∃ (s : Fin 2048) (q : Fin 512), i = ix2 s q := ⟨i 0, i 1, eq_ix2 i⟩
  rw [Cert.KernelIdeal.Run.result_apply, Cert.ReferenceIdeal.Read.val_main_v11_apply,
    Cert.ReferenceIdeal.RefValue.sums_apply, Cert.ReferenceIdeal.RefValue.divisor_apply, counts_eq]

/-- From memories that agree on X and on the labels, both idealized programs end with the same result. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Run.result m c
  rw [Cert.ReferenceIdeal.Read.val_main_v11_eq, (hagree c).1, (hagree c).2]
  exact result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
